-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x19 : Shape := ⟨2, ![4000000, 19]⟩
abbrev S4000000x1 : Shape := ⟨2, ![4000000, 1]⟩
abbrev S4000000x18 : Shape := ⟨2, ![4000000, 18]⟩
abbrev S18 : Shape := ⟨1, ![18]⟩
abbrev S_ : Shape := ⟨0, ![]⟩

class Facts : Prop where
  bcast_S_S4000000x19 : S_.BroadcastsInDim S4000000x19 (![] : Fin 0 → Fin S4000000x19.rank)
  reducesTo_S4000000x19_S_d0_1 : S4000000x19.ReducesTo [0, 1] S_
  h_S_ : 0 < S_.numel
  bcast_S_S4000000x1 : S_.BroadcastsInDim S4000000x1 (![] : Fin 0 → Fin S4000000x1.rank)
  reducesTo_S4000000x1_S_d0_1 : S4000000x1.ReducesTo [0, 1] S_
  bcast_S_S4000000x18 : S_.BroadcastsInDim S4000000x18 (![] : Fin 0 → Fin S4000000x18.rank)
  reducesTo_S4000000x18_S_d0_1 : S4000000x18.ReducesTo [0, 1] S_
  bcast_S_S18 : S_.BroadcastsInDim S18 (![] : Fin 0 → Fin S18.rank)
  reducesTo_S18_S_d0 : S18.ReducesTo [0] S_

variable [Facts]

def fn_part1 {F : FTy → Type} [FloatOps F] (main_arg4 : FVec F S18 .f32) (main_v13 : IVec S_ 1) (main_v16 : IVec S4000000x1 1) : IVec S_ 1 :=
  let main_c_5 : IVec S_ 1 := constantI S_ 1 1#1
  let main_v17 : IVec S_ 1 := (fun x v => Host.reduce IntOp.andi x v reducesTo_S4000000x1_S_d0_1 h_S_) main_v16 main_c_5
  let main_v18 : IVec S_ 1 := andi main_v13 main_v17
  let main_v19 : FVec F S18 .f32 := Host.absf main_arg4
  let main_cst_6 : FVec F S_ .f32 := constant S_ .f32 0x7F800000#32
  let main_v20 : FVec F S18 .f32 := broadcastInDim S18 ![] bcast_S_S18 main_cst_6
  let main_v21 : IVec S18 1 := cmpf .olt main_v19 main_v20
  let main_c_7 : IVec S_ 1 := constantI S_ 1 1#1
  let main_v22 : IVec S_ 1 := (fun x v => Host.reduce IntOp.andi x v reducesTo_S18_S_d0 h_S_) main_v21 main_c_7
  let main_v23 : IVec S_ 1 := andi main_v18 main_v22
  main_v23

def fn {F : FTy → Type} [FloatOps F] (main_arg0 : FVec F S4000000x19 .f32) (main_arg1 : FVec F S4000000x1 .f32) (main_arg2 : FVec F S4000000x18 .f32) (main_arg3 : FVec F S4000000x1 .f32) (main_arg4 : FVec F S18 .f32) : IVec S_ 1 :=
  let main_v0 : FVec F S4000000x19 .f32 := Host.absf main_arg0
  let main_cst : FVec F S_ .f32 := constant S_ .f32 0x7F800000#32
  let main_v1 : FVec F S4000000x19 .f32 := broadcastInDim S4000000x19 ![] bcast_S_S4000000x19 main_cst
  let main_v2 : IVec S4000000x19 1 := cmpf .olt main_v0 main_v1
  let main_c : IVec S_ 1 := constantI S_ 1 1#1
  let main_v3 : IVec S_ 1 := (fun x v => Host.reduce IntOp.andi x v reducesTo_S4000000x19_S_d0_1 h_S_) main_v2 main_c
  let main_v4 : FVec F S4000000x1 .f32 := Host.absf main_arg1
  let main_cst_0 : FVec F S_ .f32 := constant S_ .f32 0x7F800000#32
  let main_v5 : FVec F S4000000x1 .f32 := broadcastInDim S4000000x1 ![] bcast_S_S4000000x1 main_cst_0
  let main_v6 : IVec S4000000x1 1 := cmpf .olt main_v4 main_v5
  let main_c_1 : IVec S_ 1 := constantI S_ 1 1#1
  let main_v7 : IVec S_ 1 := (fun x v => Host.reduce IntOp.andi x v reducesTo_S4000000x1_S_d0_1 h_S_) main_v6 main_c_1
  let main_v8 : IVec S_ 1 := andi main_v3 main_v7
  let main_v9 : FVec F S4000000x18 .f32 := Host.absf main_arg2
  let main_cst_2 : FVec F S_ .f32 := constant S_ .f32 0x7F800000#32
  let main_v10 : FVec F S4000000x18 .f32 := broadcastInDim S4000000x18 ![] bcast_S_S4000000x18 main_cst_2
  let main_v11 : IVec S4000000x18 1 := cmpf .olt main_v9 main_v10
  let main_c_3 : IVec S_ 1 := constantI S_ 1 1#1
  let main_v12 : IVec S_ 1 := (fun x v => Host.reduce IntOp.andi x v reducesTo_S4000000x18_S_d0_1 h_S_) main_v11 main_c_3
  let main_v13 : IVec S_ 1 := andi main_v8 main_v12
  let main_v14 : FVec F S4000000x1 .f32 := Host.absf main_arg3
  let main_cst_4 : FVec F S_ .f32 := constant S_ .f32 0x7F800000#32
  let main_v15 : FVec F S4000000x1 .f32 := broadcastInDim S4000000x1 ![] bcast_S_S4000000x1 main_cst_4
  let main_v16 : IVec S4000000x1 1 := cmpf .olt main_v14 main_v15
  fn_part1 (F := F) main_arg4 main_v13 main_v16
-- ==== Kernel.lean ====
abbrev S4000000x19 : Shape := ⟨2, ![4000000, 19]⟩
abbrev S4000000x1 : Shape := ⟨2, ![4000000, 1]⟩
abbrev S4000000x18 : Shape := ⟨2, ![4000000, 18]⟩
abbrev S18 : Shape := ⟨1, ![18]⟩
abbrev S1x18 : Shape := ⟨2, ![1, 18]⟩
abbrev S16x128 : Shape := ⟨2, ![16, 128]⟩
abbrev S8000x19 : Shape := ⟨2, ![8000, 19]⟩
abbrev S8000x18 : Shape := ⟨2, ![8000, 18]⟩
abbrev S8000x1 : Shape := ⟨2, ![8000, 1]⟩
abbrev S8x128 : Shape := ⟨2, ![8, 128]⟩
abbrev S8000 : Shape := ⟨1, ![8000]⟩
abbrev S1 : Shape := ⟨1, ![1]⟩
abbrev S1x1 : Shape := ⟨2, ![1, 1]⟩
abbrev S_ : Shape := ⟨0, ![]⟩

abbrev nBuf : Space → Nat
  | .hbm => 25
  | .vmem => 13
  | .smem => 0
  | _ => 0

abbrev bufTy : (tb : Table) → Fin (tcTables nBuf tb) → BufTy
  | .hbm, ⟨0, _⟩ => ⟨S4000000x19, .f32⟩
  | .hbm, ⟨1, _⟩ => ⟨S4000000x1, .f32⟩
  | .hbm, ⟨2, _⟩ => ⟨S4000000x18, .f32⟩
  | .hbm, ⟨3, _⟩ => ⟨S4000000x1, .f32⟩
  | .hbm, ⟨4, _⟩ => ⟨S18, .f32⟩
  | .hbm, ⟨5, _⟩ => ⟨S1x18, .f32⟩
  | .hbm, ⟨6, _⟩ => ⟨S16x128, .f32⟩
  | .hbm, ⟨7, _⟩ => ⟨S16x128, .f32⟩
  | .hbm, ⟨8, _⟩ => ⟨S1x1, .f32⟩
  | .hbm, ⟨9, _⟩ => ⟨S_, .f32⟩
  | .hbm, ⟨10, _⟩ => ⟨S1x1, .f32⟩
  | .hbm, ⟨11, _⟩ => ⟨S_, .f32⟩
  | .hbm, ⟨12, _⟩ => ⟨S_, .f32⟩
  | .hbm, ⟨13, _⟩ => ⟨S1x1, .f32⟩
  | .hbm, ⟨14, _⟩ => ⟨S_, .f32⟩
  | .hbm, ⟨15, _⟩ => ⟨S1x1, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .local _ .vmem, ⟨0, _⟩ => ⟨S8000x19, .f32⟩
  | .local _ .vmem, ⟨1, _⟩ => ⟨S8000x19, .f32⟩
  | .local _ .vmem, ⟨2, _⟩ => ⟨S8000x18, .f32⟩
  | .local _ .vmem, ⟨3, _⟩ => ⟨S8000x18, .f32⟩
  | .local _ .vmem, ⟨4, _⟩ => ⟨S8000x1, .f32⟩
  | .local _ .vmem, ⟨5, _⟩ => ⟨S8000x1, .f32⟩
  | .local _ .vmem, ⟨6, _⟩ => ⟨S8000x1, .f32⟩
  | .local _ .vmem, ⟨7, _⟩ => ⟨S8000x1, .f32⟩
  | .local _ .vmem, ⟨8, _⟩ => ⟨S1x18, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S8x128, .f32⟩
  | _, _ => ⟨S4000000x19, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 250], ![false, false]⟩

def cc0_transform_0 (i : grid0.Coords) : Fin 2 → Nat :=
  let arg0 : BitVec 32 := BitVec.ofNat 32 (i 0).val
  let arg1 : BitVec 32 := BitVec.ofNat 32 (i 1).val
  let c250_i32 : BitVec 32 := 250#32
  let v0 : BitVec 32 := Scalar.muli arg0 c250_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c250_i32 : BitVec 32 := 250#32
  let v0 : BitVec 32 := Scalar.muli arg0 c250_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c250_i32 : BitVec 32 := 250#32
  let v0 : BitVec 32 := Scalar.muli arg0 c250_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c250_i32 : BitVec 32 := 250#32
  let v0 : BitVec 32 := Scalar.muli arg0 c250_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8000x19 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8000x18 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x18 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  shapeCasts_S18_S1x18 : S18.ShapeCasts S1x18
  inb_S8x128_S8x128_0_0 : ∀ a, (![0, 0] : Fin 2 → Nat) a + S8x128.size a ≤ S8x128.size a
  h_S8x128 : 0 < S8x128.numel
  inb_S8000x19_S8000x18_0_0 : ∀ a, (![0, 0] : Fin 2 → Nat) a + S8000x18.size a ≤ S8000x19.size a
  h_S8000x18 : 0 < S8000x18.numel
  inb_S8000x19_S8000x1_0_18 : ∀ a, (![0, 18] : Fin 2 → Nat) a + S8000x1.size a ≤ S8000x19.size a
  h_S8000x1 : 0 < S8000x1.numel
  inb_S1x18_S1x18_0_0 : ∀ a, (![0, 0] : Fin 2 → Nat) a + S1x18.size a ≤ S1x18.size a
  h_S1x18 : 0 < S1x18.numel
  shapeCasts_S1x18_S1x18 : S1x18.ShapeCasts S1x18
  inb_S8000x18_S8000x18_0_0 : ∀ a, (![0, 0] : Fin 2 → Nat) a + S8000x18.size a ≤ S8000x18.size a
  broadcasts_S1x18_S8000x18 : S1x18.Broadcasts S8000x18
  reduces_S8000x18_S8000 : S8000x18.Reduces [1] S8000
  shapeCasts_S8000_S8000x1 : S8000.ShapeCasts S8000x1
  inb_S8000x1_S8000x1_0_0 : ∀ a, (![0, 0] : Fin 2 → Nat) a + S8000x1.size a ≤ S8000x1.size a
  reduces_S8000x1_S1 : S8000x1.Reduces [0] S1
  shapeCasts_S1_S1x1 : S1.ShapeCasts S1x1
  inb_S8x128_S1x1_0_0 : ∀ a, (![0, 0] : Fin 2 → Nat) a + S1x1.size a ≤ S8x128.size a
  h_S1x1 : 0 < S1x1.numel
  shapeCasts_S1x1_S1x1 : S1x1.ShapeCasts S1x1
  slices_S16x128_S1x1_0_0 : S16x128.Slices ![0, 0] S1x1
  shapeCasts_S1x1_S_ : S1x1.ShapeCasts S_
  slices_S16x128_S1x1_8_0 : S16x128.Slices ![8, 0] S1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x19.size a ≤ S4000000x19.size a
  hwx0_0 : ∀ i : grid0.Coords, EltTy.bits .f32 = 32 ∨ (Rect.block (s := S4000000x19) S8000x19.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x18.size a ≤ S4000000x18.size a
  hwx0_1 : ∀ i : grid0.Coords, EltTy.bits .f32 = 32 ∨ (Rect.block (s := S4000000x18) S8000x18.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x1.size a ≤ S4000000x1.size a
  hwx0_2 : ∀ i : grid0.Coords, EltTy.bits .f32 = 32 ∨ (Rect.block (s := S4000000x1) S8000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x1.size a ≤ S4000000x1.size a
  hwx0_3 : ∀ i : grid0.Coords, EltTy.bits .f32 = 32 ∨ (Rect.block (s := S4000000x1) S8000x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x18.size a ≤ S1x18.size a
  hwx0_4 : ∀ i : grid0.Coords, EltTy.bits .f32 = 32 ∨ (Rect.block (s := S1x18) S1x18.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x128.size a ≤ S16x128.size a
  hwx0_5 : ∀ i : grid0.Coords, EltTy.bits .f32 = 32 ∨ (Rect.block (s := S16x128) S8x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x128.size a ≤ S16x128.size a
  hwx0_6 : ∀ i : grid0.Coords, EltTy.bits .f32 = 32 ∨ (Rect.block (s := S16x128) S8x128.size (cc0_transform_6 i) (hinb0_6 i)).WholeWords (EltTy.packing .f32)

variable [Facts₀]

abbrev win0_0 : Pipeline.Window sig grid0 :=
  Pipeline.Window.ofSpec (Memref.whole main_arg0) S8000x19.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8000x18.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S8000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x18.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1_0) S8x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1_1) S8x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4000000x19 : Shape := ⟨2, ![4000000, 19]⟩
abbrev S4000000x1 : Shape := ⟨2, ![4000000, 1]⟩
abbrev S4000000x18 : Shape := ⟨2, ![4000000, 18]⟩
abbrev S18 : Shape := ⟨1, ![18]⟩
abbrev S1x18 : Shape := ⟨2, ![1, 18]⟩
abbrev S_ : Shape := ⟨0, ![]⟩
abbrev S4000000 : Shape := ⟨1, ![4000000]⟩

abbrev nBuf : Space → Nat
  | .hbm => 30
  | .vmem => 0
  | .smem => 0
  | _ => 0

abbrev bufTy : (tb : Table) → Fin (tcTables nBuf tb) → BufTy
  | .hbm, ⟨0, _⟩ => ⟨S4000000x19, .f32⟩
  | .hbm, ⟨1, _⟩ => ⟨S4000000x1, .f32⟩
  | .hbm, ⟨2, _⟩ => ⟨S4000000x18, .f32⟩
  | .hbm, ⟨3, _⟩ => ⟨S4000000x1, .f32⟩
  | .hbm, ⟨4, _⟩ => ⟨S18, .f32⟩
  | .hbm, ⟨5, _⟩ => ⟨S4000000x18, .f32⟩
  | .hbm, ⟨6, _⟩ => ⟨S4000000x1, .f32⟩
  | .hbm, ⟨7, _⟩ => ⟨S1x18, .f32⟩
  | .hbm, ⟨8, _⟩ => ⟨S4000000x18, .f32⟩
  | .hbm, ⟨9, _⟩ => ⟨S4000000x18, .f32⟩
  | .hbm, ⟨10, _⟩ => ⟨S4000000x18, .f32⟩
  | .hbm, ⟨11, _⟩ => ⟨S_, .f32⟩
  | .hbm, ⟨12, _⟩ => ⟨S4000000, .f32⟩
  | .hbm, ⟨13, _⟩ => ⟨S4000000x1, .f32⟩
  | .hbm, ⟨14, _⟩ => ⟨S4000000x1, .f32⟩
  | .hbm, ⟨15, _⟩ => ⟨S4000000x1, .f32⟩
  | .hbm, ⟨16, _⟩ => ⟨S4000000x1, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S4000000x1, .f32⟩
  | .hbm, ⟨22, _⟩ => ⟨S4000000x1, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | _, _ => ⟨S4000000x19, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩

abbrev nD : Nat := 1
abbrev τ : Topo := Topo.v7x

variable {F : FTy → Type} [FloatOps F]

class Facts₀ : Prop where
  slices_S4000000x19_S4000000x18_0_0 : S4000000x19.Slices ![0, 0] S4000000x18
  slices_S4000000x19_S4000000x1_0_18 : S4000000x19.Slices ![0, 18] S4000000x1
  bcast_S18_S1x18_1 : S18.BroadcastsInDim S1x18 (![1] : Fin 1 → Fin S1x18.rank)
  bcast_S1x18_S4000000x18_0_1 : S1x18.BroadcastsInDim S4000000x18 (![0, 1] : Fin 2 → Fin S4000000x18.rank)
  reducesTo_S4000000x18_S4000000_d1 : S4000000x18.ReducesTo [1] S4000000
  h_S_ : 0 < S_.numel
  bcast_S4000000_S4000000x1_0 : S4000000.BroadcastsInDim S4000000x1 (![0] : Fin 1 → Fin S4000000x1.rank)
  reducesTo_S4000000x1_S_d0_1 : S4000000x1.ReducesTo [0, 1] S_

variable [Facts₀]

class Facts : Prop extends Facts₀ where

variable [Facts]
-- ==== Proof.Block.lean ====
/-
  One grid point's arithmetic, read at an index.

  At a point the body holds a block of 8000 rows of each streamed array and the one row of β. For row `y` of the block it
  forms  (∑ k < 18, A y k · (β k + C y k)) + D y  — `C` the first 18 columns of the block of the model's output, `D` its
  column 18 — subtracts a target, squares, and sums the 8000 squares into ONE number, which it adds to entry (0, 0) of
  an output block. This module states that number (`devB`) and proves that the three pure terms of the body are it.
-/
import proofs.«140841_j48430051230317_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Block

open Cert.KernelIdeal Cert.KernelIdeal.Gen Idealize.ShloMosaic Idealize.ShloMosaic.ValueIdx

/-! ## Two layout facts: a column cast and a one-element cast -/

/-- A length-`a` vector cast to a column `[a, 1]` reads, at `(p, 0)`, the vector at `p`. -/
theorem shapeCast_col_apply {α : Type} {a : Nat} (x : (⟨1, ![a]⟩ : Shape).Idx → α)
    (h : (⟨1, ![a]⟩ : Shape).ShapeCasts ⟨2, ![a, 1]⟩) (p : Fin a) :
    shapeCast ⟨2, ![a, 1]⟩ x h (ix2 p (0 : Fin 1)) = x (ix1 p) :=
  shapeCast_apply x h _ _ (by
    rw [Shape.rowMajor_val_two, Shape.rowMajor_val_one]
    show p.val = p.val * 1 + 0
    omega)

/-- A one-element vector cast to `[1, 1]` reads its one element. -/
theorem shapeCast_one_apply {α : Type} (x : (⟨1, ![1]⟩ : Shape).Idx → α)
    (h : (⟨1, ![1]⟩ : Shape).ShapeCasts ⟨2, ![1, 1]⟩) :
    shapeCast ⟨2, ![1, 1]⟩ x h (ix2 (0 : Fin 1) (0 : Fin 1)) = x (ix1 (0 : Fin 1)) :=
  shapeCast_apply x h _ _ (by
    rw [Shape.rowMajor_val_two, Shape.rowMajor_val_one]
    rfl)

/-! ## A block's row, and its sum of squared deviations -/

/-- Row `y` of a block before the target is subtracted. -/
def rowB (C : FVec Ideal S8000x18 .f32) (D : FVec Ideal S8000x1 .f32) (B : FVec Ideal S1x18 .f32)
    (A : FVec Ideal S8000x18 .f32) (y : Fin 8000) : EReal :=
  (∑ k : Fin 18, A (ix2 y k) * (B (ix2 (0 : Fin 1) k) + C (ix2 y k))) + D (ix2 y (0 : Fin 1))

/-- The block's 8000 squared deviations from the target `T`, summed. -/
def devB (C : FVec Ideal S8000x18 .f32) (D : FVec Ideal S8000x1 .f32) (B : FVec Ideal S1x18 .f32)
    (A : FVec Ideal S8000x18 .f32) (T : FVec Ideal S8000x1 .f32) : EReal :=
  ∑ y : Fin 8000, (rowB C D B A y - T (ix2 y (0 : Fin 1))) * (rowB C D B A y - T (ix2 y (0 : Fin 1)))

/-- The index a sum over axis 1 of an `[8000, 18]` block inserts at row `y` is `(y, k)`. -/
theorem lift_row (y : Fin 8000) (k : Fin 18) :
    reduces_S8000x18_S8000.lift (ix1 y) k = ix2 y k :=
  funext fun a => Fin.ext (by match a with | ⟨0, _⟩ => rfl | ⟨1, _⟩ => rfl)

/-- The index a sum over axis 0 of an `[8000, 1]` column inserts is `(y, 0)`. -/
theorem lift_col (y : Fin 8000) :
    reduces_S8000x1_S1.lift (ix1 (0 : Fin 1)) y = ix2 y (0 : Fin 1) :=
  funext fun a => Fin.ext (by match a with | ⟨0, _⟩ => rfl | ⟨1, _⟩ => rfl)

/-- The body's row term at row `y` is the block's row. -/
theorem pay3_apply (v3 : FVec Ideal S8000x18 .f32) (v4 : FVec Ideal S8000x1 .f32) (v5 : FVec Ideal S1x18 .f32)
    (v7 : FVec Ideal S8000x18 .f32) (y : Fin 8000) :
    k0_pay3 (F := Ideal) v3 v4 v5 v7 (ix2 y (0 : Fin 1)) = rowB v3 v4 v5 v7 y := by
  unfold k0_pay3 rowB
  dsimp only
  refine (addf_apply _ _ _).trans ?_
  refine congrArg (· + v4 (ix2 y (0 : Fin 1))) ?_
  refine (shapeCast_col_apply _ _ y).trans ?_
  refine (Ideal.multiReduction_add_single _ 0x00000000#32 reduces_S8000x18_S8000 (.inl rfl) rfl (ix1 y)).trans ?_
  refine Finset.sum_congr rfl fun k _ => ?_
  rw [lift_row y k]
  refine (mulf_apply _ _ _).trans ?_
  refine congrArg (v7 (ix2 y k) * ·) ?_
  refine (addf_apply _ _ _).trans ?_
  refine congrArg (· + v3 (ix2 y k)) ?_
  rw [shapeCast_self]
  exact broadcastTo_1b_ab_apply v5 _ y k

/-- A column of squared deviations summed over its 8000 rows and cast to `[1, 1]`. -/
theorem sumsq_apply (r t : FVec Ideal S8000x1 .f32) (f : Fin 8000 → EReal) (hf : ∀ y, r (ix2 y (0 : Fin 1)) = f y) :
    shapeCast S1x1 (multiReduction (F := Ideal) .add [0] S1 (mulf (subf r t) (subf r t)) 0x00000000#32 reduces_S8000x1_S1 (.inl rfl) rfl)
        shapeCasts_S1_S1x1 (ix2 (0 : Fin 1) (0 : Fin 1))
      = ∑ y : Fin 8000, (f y - t (ix2 y (0 : Fin 1))) * (f y - t (ix2 y (0 : Fin 1))) := by
  refine (shapeCast_one_apply _ _).trans ?_
  refine (Ideal.multiReduction_add_single _ 0x00000000#32 reduces_S8000x1_S1 (.inl rfl) rfl (ix1 (0 : Fin 1))).trans ?_
  refine Finset.sum_congr rfl fun y _ => ?_
  rw [lift_col y]
  refine (mulf_apply _ _ _).trans ?_
  rw [subf_apply, hf y]

/-- The first output's stored term at its one index: what was read back of the block, plus the point's sum. -/
theorem pay4_apply (v3 : FVec Ideal S8000x18 .f32) (v4 : FVec Ideal S8000x1 .f32) (v5 : FVec Ideal S1x18 .f32)
    (v7 : FVec Ideal S8000x18 .f32) (v14 : FVec Ideal S8000x1 .f32) (v24 : FVec Ideal S1x1 .f32) :
    k0_pay4 (F := Ideal) v3 v4 v5 v7 v14 v24 (ix2 (0 : Fin 1) (0 : Fin 1))
      = v24 (ix2 (0 : Fin 1) (0 : Fin 1)) + devB v3 v4 v5 v7 v14 := by
  unfold k0_pay4 devB
  dsimp only
  refine (addf_apply _ _ _).trans ?_
  rw [shapeCast_self]
  refine congrArg (v24 (ix2 (0 : Fin 1) (0 : Fin 1)) + ·) ?_
  exact sumsq_apply _ v14 _ (pay3_apply v3 v4 v5 v7)

/-- The second output's stored term likewise, against the second target. -/
theorem pay5_apply (v3 : FVec Ideal S8000x18 .f32) (v4 : FVec Ideal S8000x1 .f32) (v5 : FVec Ideal S1x18 .f32)
    (v7 : FVec Ideal S8000x18 .f32) (v16 : FVec Ideal S8000x1 .f32) (v28 : FVec Ideal S1x1 .f32) :
    k0_pay5 (F := Ideal) v3 v4 v5 v7 v16 v28 (ix2 (0 : Fin 1) (0 : Fin 1))
      = v28 (ix2 (0 : Fin 1) (0 : Fin 1)) + devB v3 v4 v5 v7 v16 := by
  unfold k0_pay5 devB
  dsimp only
  refine (addf_apply _ _ _).trans ?_
  rw [shapeCast_self]
  refine congrArg (v28 (ix2 (0 : Fin 1) (0 : Fin 1)) + ·) ?_
  exact sumsq_apply _ v16 _ (pay3_apply v3 v4 v5 v7)

end Cert.KernelIdeal.Block

end
-- ==== Proof.Cases.lean ====
/-
  What one grid point leaves at entry (0, 0) of each output block.

  The body has two cases. At the first point of a core's run it stores a block of zeros, reads entry (0, 0) back and
  stores there that zero plus the point's sum of squared deviations: the entry ends at the point's sum. At every other
  point it reads the entry the point before left and stores it plus the point's sum. The sums are `Block.devB` of the
  point's input blocks, the model's output block split into its first 18 columns and its column 18.
-/
import proofs.«140841_j48430051230317_2_alg».proof.Proof.Gen.KernelIdeal.Frame
import proofs.«140841_j48430051230317_2_alg».proof.Proof.Block
import Idealize.ShloMosaic.Lib.Tactic

noncomputable section

namespace Cert.KernelIdeal.Cases

open Cert.KernelIdeal Cert.KernelIdeal.Gen Cert.KernelIdeal.Block
open Idealize.ShloMosaic Idealize.ShloMosaic.TcCoe Idealize.ShloMosaic.ValueIdx Idealize.SL.Sem

theorem hz : (![0, 0] : Fin 2 → Nat) = fun _ => 0 := funext fun a => by fin_cases a <;> rfl

/-- The first 18 columns of a block of the model's output. -/
abbrev cols18 (x0 : Vec Ideal S8000x19 .f32) : FVec Ideal S8000x18 .f32 :=
  View.ld x0 (Rect.unit (s := S8000x19) ![0, 0] S8000x18.size inb_S8000x19_S8000x18_0_0)

/-- Column 18 of a block of the model's output. -/
abbrev col18 (x0 : Vec Ideal S8000x19 .f32) : FVec Ideal S8000x1 .f32 :=
  View.ld x0 (Rect.unit (s := S8000x19) ![0, 18] S8000x1.size inb_S8000x19_S8000x1_0_18)

/-- A point's sum of squared deviations against the target block `T`. -/
abbrev dev (x0 : Vec Ideal S8000x19 .f32) (x1 : Vec Ideal S8000x18 .f32) (x4 : Vec Ideal S1x18 .f32)
    (T : Vec Ideal S8000x1 .f32) : EReal :=
  devB (cols18 x0) (col18 x0) x4 x1 T

/-- The one-entry rectangle at the block's corner holds entry (0, 0). -/
theorem corner_emb :
    (Rect.unit (s := S8x128) ![0, 0] S1x1.size inb_S8x128_S1x1_0_0).emb (ix2 (0 : Fin 1) (0 : Fin 1))
      = ix2 (0 : Fin 8) (0 : Fin 128) :=
  funext fun a => Fin.ext (by match a with | ⟨0, _⟩ => rfl | ⟨1, _⟩ => rfl)

/-- The block of zeros the first point stores is zero at every entry. -/
theorem zeros_apply (j : S8x128.Idx) : k0_pay1 (F := Ideal) j = 0 := Ideal.ofBits_zero_f32
theorem zeros_apply' (j : S8x128.Idx) : k0_pay2 (F := Ideal) j = 0 := Ideal.ofBits_zero_f32

/-- The one whole-block store of zeros covers the block. -/
theorem zeros_cover (w : S8x128.Idx → Elt Ideal .f32) (y : S8x128.Idx) :
    ∃ p ∈ [(⟨Rect.unit (s := S8x128) ![0, 0] S8x128.size inb_S8x128_S8x128_0_0, w⟩ : View.Piece (Elt Ideal) S8x128 .f32)], y ∈ p.1.set :=
  ⟨_, List.mem_singleton_self _, View.mem_set_unit_zero hz inb_S8x128_S8x128_0_0 y⟩

/-- A later point, first output: the entry the point before left, plus this point's sum. -/
theorem outB5_corner (c : Dev nD) (i : grid0.Coords) (arg2 : Memref sig .tc .vmem S8000x19 .f32) (harg2 : arg2.IsWhole) (arg3 : Memref sig .tc .vmem S8000x18 .f32) (harg3 : arg3.IsWhole) (arg4 : Memref sig .tc .vmem S8000x1 .f32) (harg4 : arg4.IsWhole) (arg5 : Memref sig .tc .vmem S8000x1 .f32) (harg5 : arg5.IsWhole) (arg6 : Memref sig .tc .vmem S1x18 .f32) (harg6 : arg6.IsWhole) (arg7 : Memref sig .tc .vmem S8x128 .f32) (harg7 : arg7.IsWhole) (arg8 : Memref sig .tc .vmem S8x128 .f32) (harg8 : arg8.IsWhole) (hc0 : ¬cond0_0 i)
    (x0 : Vec Ideal S8000x19 .f32) (x1 : Vec Ideal S8000x18 .f32) (x2 : Vec Ideal S8000x1 .f32) (x3 : Vec Ideal S8000x1 .f32) (x4 : Vec Ideal S1x18 .f32) (xo5 xo6 : Vec Ideal S8x128 .f32) :
    out0_B_5 (F := Ideal) c i arg2 harg2 arg3 harg3 arg4 harg4 arg5 harg5 arg6 harg6 arg7 harg7 arg8 harg8 hc0 x0 x1 x2 x3 x4 xo5 xo6 (ix2 (0 : Fin 8) (0 : Fin 128))
      = xo5 (ix2 (0 : Fin 8) (0 : Fin 128)) + dev x0 x1 x4 x2 := by
  unfold out0_B_5 kernelRun0_B
  dsimp only
  rw [← corner_emb, View.read_writes_cons_emb]
  refine (pay4_apply _ _ _ _ _ _).trans ?_
  simp only [View.readAt_eq_ld, harg2.read_unread, harg3.read_unread, harg4.read_unread, harg6.read_unread, harg7.read_unread,
    View.ld_unit_zero (S := S8000x18) hz, View.ld_unit_zero (S := S8000x1) hz, View.ld_unit_zero (S := S1x18) hz]
  rfl

/-- A later point, second output. -/
theorem outB6_corner (c : Dev nD) (i : grid0.Coords) (arg2 : Memref sig .tc .vmem S8000x19 .f32) (harg2 : arg2.IsWhole) (arg3 : Memref sig .tc .vmem S8000x18 .f32) (harg3 : arg3.IsWhole) (arg4 : Memref sig .tc .vmem S8000x1 .f32) (harg4 : arg4.IsWhole) (arg5 : Memref sig .tc .vmem S8000x1 .f32) (harg5 : arg5.IsWhole) (arg6 : Memref sig .tc .vmem S1x18 .f32) (harg6 : arg6.IsWhole) (arg7 : Memref sig .tc .vmem S8x128 .f32) (harg7 : arg7.IsWhole) (arg8 : Memref sig .tc .vmem S8x128 .f32) (harg8 : arg8.IsWhole) (hc0 : ¬cond0_0 i)
    (x0 : Vec Ideal S8000x19 .f32) (x1 : Vec Ideal S8000x18 .f32) (x2 : Vec Ideal S8000x1 .f32) (x3 : Vec Ideal S8000x1 .f32) (x4 : Vec Ideal S1x18 .f32) (xo5 xo6 : Vec Ideal S8x128 .f32) :
    out0_B_6 (F := Ideal) c i arg2 harg2 arg3 harg3 arg4 harg4 arg5 harg5 arg6 harg6 arg7 harg7 arg8 harg8 hc0 x0 x1 x2 x3 x4 xo5 xo6 (ix2 (0 : Fin 8) (0 : Fin 128))
      = xo6 (ix2 (0 : Fin 8) (0 : Fin 128)) + dev x0 x1 x4 x3 := by
  unfold out0_B_6 kernelRun0_B
  dsimp only
  sl_unfold_words
  rw [← corner_emb, View.read_writes_cons_emb]
  refine (pay5_apply _ _ _ _ _ _).trans ?_
  simp only [View.readAt_eq_ld, harg2.read_unread, harg3.read_unread, harg5.read_unread, harg6.read_unread, harg8.read_unread,
    View.ld_unit_zero (S := S8000x18) hz, View.ld_unit_zero (S := S8000x1) hz, View.ld_unit_zero (S := S1x18) hz]
  rfl

/-- A first point, first output: zero plus the point's sum. -/
theorem outA5_corner (c : Dev nD) (i : grid0.Coords) (arg2 : Memref sig .tc .vmem S8000x19 .f32) (harg2 : arg2.IsWhole) (arg3 : Memref sig .tc .vmem S8000x18 .f32) (harg3 : arg3.IsWhole) (arg4 : Memref sig .tc .vmem S8000x1 .f32) (harg4 : arg4.IsWhole) (arg5 : Memref sig .tc .vmem S8000x1 .f32) (harg5 : arg5.IsWhole) (arg6 : Memref sig .tc .vmem S1x18 .f32) (harg6 : arg6.IsWhole) (arg7 : Memref sig .tc .vmem S8x128 .f32) (harg7 : arg7.IsWhole) (arg8 : Memref sig .tc .vmem S8x128 .f32) (harg8 : arg8.IsWhole) (hc0 : cond0_0 i)
    (x0 : Vec Ideal S8000x19 .f32) (x1 : Vec Ideal S8000x18 .f32) (x2 : Vec Ideal S8000x1 .f32) (x3 : Vec Ideal S8000x1 .f32) (x4 : Vec Ideal S1x18 .f32) :
    out0_A_5 (F := Ideal) c i arg2 harg2 arg3 harg3 arg4 harg4 arg5 harg5 arg6 harg6 arg7 harg7 arg8 harg8 hc0 x0 x1 x2 x3 x4 (ix2 (0 : Fin 8) (0 : Fin 128)) = dev x0 x1 x4 x2 := by
  unfold out0_A_5 kernelRun0_A
  dsimp only
  sl_unfold_words
  rw [← corner_emb, View.read_writes_cons_emb]
  refine (pay4_apply _ _ _ _ _ _).trans ?_
  rw [View.readCov_eq_canon_ld arg7.view _ (Rect.unit (s := S8x128) ![0, 0] S1x1.size inb_S8x128_S1x1_0_0) (zeros_cover _),
    View.canon_unit_zero hz]
  simp only [View.readAt_eq_ld, harg2.read_unread, harg3.read_unread, harg4.read_unread, harg6.read_unread,
    View.ld_unit_zero (S := S8000x18) hz, View.ld_unit_zero (S := S8000x1) hz, View.ld_unit_zero (S := S1x18) hz]
  refine (congrArg (· + _) (zeros_apply _)).trans ?_
  exact zero_add _

/-- A first point, second output. -/
theorem outA6_corner (c : Dev nD) (i : grid0.Coords) (arg2 : Memref sig .tc .vmem S8000x19 .f32) (harg2 : arg2.IsWhole) (arg3 : Memref sig .tc .vmem S8000x18 .f32) (harg3 : arg3.IsWhole) (arg4 : Memref sig .tc .vmem S8000x1 .f32) (harg4 : arg4.IsWhole) (arg5 : Memref sig .tc .vmem S8000x1 .f32) (harg5 : arg5.IsWhole) (arg6 : Memref sig .tc .vmem S1x18 .f32) (harg6 : arg6.IsWhole) (arg7 : Memref sig .tc .vmem S8x128 .f32) (harg7 : arg7.IsWhole) (arg8 : Memref sig .tc .vmem S8x128 .f32) (harg8 : arg8.IsWhole) (hc0 : cond0_0 i)
    (x0 : Vec Ideal S8000x19 .f32) (x1 : Vec Ideal S8000x18 .f32) (x2 : Vec Ideal S8000x1 .f32) (x3 : Vec Ideal S8000x1 .f32) (x4 : Vec Ideal S1x18 .f32) :
    out0_A_6 (F := Ideal) c i arg2 harg2 arg3 harg3 arg4 harg4 arg5 harg5 arg6 harg6 arg7 harg7 arg8 harg8 hc0 x0 x1 x2 x3 x4 (ix2 (0 : Fin 8) (0 : Fin 128)) = dev x0 x1 x4 x3 := by
  unfold out0_A_6 kernelRun0_A
  dsimp only
  sl_unfold_words
  rw [← corner_emb, View.read_writes_cons_emb]
  refine (pay5_apply _ _ _ _ _ _).trans ?_
  rw [View.readCov_eq_canon_ld arg8.view _ (Rect.unit (s := S8x128) ![0, 0] S1x1.size inb_S8x128_S1x1_0_0) (zeros_cover _),
    View.canon_unit_zero hz]
  simp only [View.readAt_eq_ld, harg2.read_unread, harg3.read_unread, harg5.read_unread, harg6.read_unread,
    View.ld_unit_zero (S := S8000x18) hz, View.ld_unit_zero (S := S8000x1) hz, View.ld_unit_zero (S := S1x18) hz]
  refine (congrArg (· + _) (zeros_apply' _)).trans ?_
  exact zero_add _

end Cert.KernelIdeal.Cases

end
-- ==== Proof.Spec.lean ====
/-
  The specification both programs meet, over the extended reals.

  The five argument arrays are read at natural-number coordinates (zero outside their extents, where nothing is ever
  read). Row `r` of the data contributes the squared deviation
      ((∑ k < 18, A r k · (β k + MO r k)) + MO r 18 − Y r)²
  and the loss is  (∑ r < 4000000, dev₁ r) / 4000000 + 1 · ((∑ r < 4000000, dev₃ r) / 4000000),  the two deviations
  taken against the targets `Y₁` and `Y₃`. The only law used between the two programs is that a sum over the
  4000000 rows may be taken block by block — 2 halves of 250 consecutive blocks of 8000 rows — which holds in any
  commutative monoid, so also at infinite entries.
-/
import Idealize.ShloMosaic.PureOps.Ideal.Laws
import Idealize.ShloMosaic.Lib.ValueIdx

noncomputable section

namespace Cert.LossSpec

open Idealize.ShloMosaic Idealize.ShloMosaic.ValueIdx

/-! ## Arrays at natural-number coordinates -/

/-- A rank-2 array read at a row and a column number; zero outside. -/
def at2 {n0 n1 : Nat} (x : (⟨2, ![n0, n1]⟩ : Shape).Idx → EReal) (r k : Nat) : EReal :=
  if h : r < n0 ∧ k < n1 then x (ix2 ⟨r, h.1⟩ ⟨k, h.2⟩) else 0

/-- A rank-1 array read at a position; zero outside. -/
def at1 {n : Nat} (x : (⟨1, ![n]⟩ : Shape).Idx → EReal) (k : Nat) : EReal :=
  if h : k < n then x (ix1 ⟨k, h⟩) else 0

theorem at2_idx {n0 n1 : Nat} (x : (⟨2, ![n0, n1]⟩ : Shape).Idx → EReal) (j : (⟨2, ![n0, n1]⟩ : Shape).Idx) :
    at2 x (j 0).val (j 1).val = x j := by
  unfold at2
  rw [dif_pos ⟨(j 0).isLt, (j 1).isLt⟩]
  exact congrArg x (eq_ix2 j).symm

theorem at2_of_val {n0 n1 : Nat} (x : (⟨2, ![n0, n1]⟩ : Shape).Idx → EReal) (j : (⟨2, ![n0, n1]⟩ : Shape).Idx)
    (r k : Nat) (hr : (j 0).val = r) (hk : (j 1).val = k) : x j = at2 x r k := by
  subst hr; subst hk; exact (at2_idx x j).symm

theorem at1_of_val {n : Nat} (x : (⟨1, ![n]⟩ : Shape).Idx → EReal) (j : (⟨1, ![n]⟩ : Shape).Idx)
    (k : Nat) (hk : (j 0).val = k) : x j = at1 x k := by
  subst hk
  unfold at1
  rw [dif_pos (show (j 0).val < n from (j 0).isLt)]
  exact congrArg x (eq_ix1 j)

/-! ## One row, and the loss -/

/-- Row `r` before the targets are subtracted: the 18-term dot product of `A`'s row with `β` plus the row's
    corrections, plus the row's bias (column 18 of `MO`). -/
def rowValue (A MO : Nat → Nat → EReal) (B : Nat → EReal) (r : Nat) : EReal :=
  (∑ k : Fin 18, A r k.val * (B k.val + MO r k.val)) + MO r 18

/-- Row `r`'s squared deviation from the target `Y`. -/
def sqDev (A MO : Nat → Nat → EReal) (B Y : Nat → EReal) (r : Nat) : EReal :=
  (rowValue A MO B r - Y r) * (rowValue A MO B r - Y r)

/-- The sum of a row function over all 4000000 rows. -/
def total (f : Nat → EReal) : EReal := ∑ r ∈ Finset.range 4000000, f r

/-- The loss: the mean squared deviation against the first target plus one times the mean against the second, the
    means' divisor and the factor one being the two programs' own float constants. -/
def loss (A MO : Nat → Nat → EReal) (B Y1 Y3 : Nat → EReal) : EReal :=
  FloatOps.addf (F := Ideal) (φ := .f32)
    (FloatOps.hostDivf (F := Ideal) (φ := .f32) (total (sqDev A MO B Y1)) (Ideal.ofBits .f32 0x4A742400#32))
    (FloatOps.mulf (F := Ideal) (φ := .f32) (Ideal.ofBits .f32 0x3F800000#32)
      (FloatOps.hostDivf (F := Ideal) (φ := .f32) (total (sqDev A MO B Y3)) (Ideal.ofBits .f32 0x4A742400#32)))

/-! ## Summing block by block -/

/-- The rows of block `n`: 8000 consecutive rows from row `8000 · n`. -/
def blockSum (f : Nat → EReal) (n : Nat) : EReal := ∑ y : Fin 8000, f (8000 * n + y.val)

/-- A sum over `b · n` consecutive naturals is the sum over `n` blocks of `b`. -/
theorem sum_range_mul {M : Type*} [AddCommMonoid M] (f : Nat → M) (b : Nat) :
    ∀ n : Nat, ∑ r ∈ Finset.range (b * n), f r = ∑ s ∈ Finset.range n, ∑ y ∈ Finset.range b, f (b * s + y)
  | 0 => by simp
  | n + 1 => by
    rw [Nat.mul_succ, Finset.sum_range_add, sum_range_mul f b n, Finset.sum_range_succ]

/-- All rows, as the first half's 250 blocks then the second half's. -/
theorem total_eq_blocks (f : Nat → EReal) :
    total f = (∑ s ∈ Finset.range 250, blockSum f (0 + s)) + ∑ s ∈ Finset.range 250, blockSum f (250 + s) := by
  have h4 : (4000000 : Nat) = 8000 * (250 + 250) := by norm_num
  unfold total blockSum
  rw [h4, sum_range_mul f 8000 (250 + 250), Finset.sum_range_add]
  refine congrArg₂ (· + ·) (Finset.sum_congr rfl fun s _ => ?_) (Finset.sum_congr rfl fun s _ => ?_)
  · rw [Nat.zero_add]
    exact (Fin.sum_univ_eq_sum_range (fun y => f (8000 * s + y)) 8000).symm
  · exact (Fin.sum_univ_eq_sum_range (fun y => f (8000 * (250 + s) + y)) 8000).symm

/-! ## A running sum that restarts every 250 steps -/

/-- The running sum of `D` that restarts at every multiple of 250: what one core's accumulator holds after step `n`. -/
def runSum (D : Nat → EReal) : Nat → EReal
  | 0 => D 0
  | n + 1 => if (n + 1) % 250 = 0 then D (n + 1) else runSum D n + D (n + 1)

theorem runSum_reset (D : Nat → EReal) (n : Nat) (h : n % 250 = 0) : runSum D n = D n := by
  cases n with
  | zero => rfl
  | succ n => exact if_pos h

theorem runSum_step (D : Nat → EReal) (n : Nat) (h : ¬(n + 1) % 250 = 0) : runSum D (n + 1) = runSum D n + D (n + 1) :=
  if_neg h

/-- After step `j` of run `q` the running sum is the sum of the run's first `j + 1` terms. -/
theorem runSum_eq (D : Nat → EReal) (q : Nat) :
    ∀ j : Nat, j < 250 → runSum D (250 * q + j) = ∑ s ∈ Finset.range (j + 1), D (250 * q + s)
  | 0, _ => by
    rw [runSum_reset D _ (by omega), Finset.sum_range_one]
  | j + 1, hj => by
    rw [show 250 * q + (j + 1) = (250 * q + j) + 1 from rfl, runSum_step D _ (by omega),
      runSum_eq D q j (by omega), Finset.sum_range_succ _ (j + 1)]
    rfl

end Cert.LossSpec

end
-- ==== Proof.PointSum.lean ====
/-
  A point's sum of squared deviations is the specification's sum over the point's 8000 rows.

  Stated over block vectors known entry by entry: if the blocks read the arrays at rows `base + y` (y < 8000), the
  block's row `y` is the specification's row `base + y`, and so are the squares and their sum.
-/
import proofs.«140841_j48430051230317_2_alg».proof.Proof.Cases
import proofs.«140841_j48430051230317_2_alg».proof.Proof.Spec

noncomputable section

namespace Cert.KernelIdeal.PointSum

open Cert.KernelIdeal Cert.KernelIdeal.Block Cert.KernelIdeal.Cases Cert.LossSpec
open Idealize.ShloMosaic Idealize.ShloMosaic.ValueIdx

/-- The first 18 columns of a block, at `(y, k)`. -/
theorem cols18_apply (x0 : Vec Ideal S8000x19 .f32) (y : Fin 8000) (k : Fin 18) :
    cols18 x0 (ix2 y k) = x0 (ix2 y ⟨k.val, by omega⟩) :=
  congrArg x0 (funext fun a => Fin.ext (by
    match a with
    | ⟨0, _⟩ => show 0 + 1 * y.val = y.val; omega
    | ⟨1, _⟩ => show 0 + 1 * k.val = k.val; omega))

/-- Column 18 of a block, at row `y`. -/
theorem col18_apply (x0 : Vec Ideal S8000x19 .f32) (y : Fin 8000) :
    col18 x0 (ix2 y (0 : Fin 1)) = x0 (ix2 y ⟨18, by omega⟩) :=
  congrArg x0 (funext fun a => Fin.ext (by
    match a with
    | ⟨0, _⟩ => show 0 + 1 * y.val = y.val; omega
    | ⟨1, _⟩ => show 18 + 1 * 0 = 18; rfl))

variable (x0 : Vec Ideal S8000x19 .f32) (x1 : Vec Ideal S8000x18 .f32) (x4 : Vec Ideal S1x18 .f32)
  (A MO : Nat → Nat → EReal) (B : Nat → EReal) (base : Nat)
  (h0 : ∀ (y : Fin 8000) (k : Fin 19), x0 (ix2 y k) = MO (base + y.val) k.val)
  (h1 : ∀ (y : Fin 8000) (k : Fin 18), x1 (ix2 y k) = A (base + y.val) k.val)
  (h4 : ∀ k : Fin 18, x4 (ix2 (0 : Fin 1) k) = B k.val)

include h0 h1 h4 in
/-- The block's row `y` is the specification's row `base + y`. -/
theorem rowB_eq (y : Fin 8000) :
    rowB (cols18 x0) (col18 x0) x4 x1 y = rowValue A MO B (base + y.val) := by
  unfold rowB rowValue
  refine congrArg₂ (· + ·) (Finset.sum_congr rfl fun k _ => ?_) ?_
  · rw [h1 y k, h4 k, cols18_apply x0 y k, h0 y ⟨k.val, by omega⟩]
  · rw [col18_apply x0 y, h0 y ⟨18, by omega⟩]

include h0 h1 h4 in
/-- The point's sum against a target block is the specification's sum over the point's rows. -/
theorem dev_eq (T : Vec Ideal S8000x1 .f32) (Y : Nat → EReal)
    (hT : ∀ y : Fin 8000, T (ix2 y (0 : Fin 1)) = Y (base + y.val)) :
    dev x0 x1 x4 T = ∑ y : Fin 8000, sqDev A MO B Y (base + y.val) := by
  show devB (cols18 x0) (col18 x0) x4 x1 T = _
  unfold devB sqDev
  refine Finset.sum_congr rfl fun y _ => ?_
  rw [rowB_eq x0 x1 x4 A MO B base h0 h1 h4 y, hT y]

end Cert.KernelIdeal.PointSum

end
-- ==== Proof.Rows.lean ====
/-
  The accumulators, point by point.

  Grid point `t` (0 ≤ t < 500; core `t / 250`, step `t % 250`) holds rows `8000·t … 8000·t + 7999` of each streamed
  array, and the whole row of β (reshaped to `[1, 18]` before the call). So the point's two sums are the
  specification's block sums `blockSum (sqDev …) t`, and entry (0, 0) of each output's block after point `t` is the
  running sum of those that restarts at `t = 0` and `t = 250`.
-/
import proofs.«140841_j48430051230317_2_alg».proof.Proof.PointSum
import Idealize.ShloMosaic.Lib.StableHlo.Run

noncomputable section

namespace Cert.KernelIdeal.Rows

open Cert.KernelIdeal Cert.KernelIdeal.Gen Cert.KernelIdeal.Block Cert.KernelIdeal.Cases Cert.KernelIdeal.PointSum
open Cert.LossSpec
open Idealize.ShloMosaic Idealize.ShloMosaic.TcCoe Idealize.ShloMosaic.ValueIdx Idealize.SL.Sem

variable (m : (ℓ : Loc nD τ sig) → Buf (Elt Ideal) ℓ)

/-! ## The argument arrays at natural-number coordinates -/

/-- The model's output `[4000000, 19]`. -/
abbrev MO (c : Dev nD) : Nat → Nat → EReal :=
  at2 (n0 := 4000000) (n1 := 19) (m ((c.tc : Thread nD τ).loc main_arg0))
/-- The first target `[4000000, 1]`, as a function of the row. -/
abbrev Y1 (c : Dev nD) : Nat → EReal :=
  fun r => at2 (n0 := 4000000) (n1 := 1) (m ((c.tc : Thread nD τ).loc main_arg1)) r 0
/-- The matrix `A` `[4000000, 18]`. -/
abbrev AA (c : Dev nD) : Nat → Nat → EReal :=
  at2 (n0 := 4000000) (n1 := 18) (m ((c.tc : Thread nD τ).loc main_arg2))
/-- The second target `[4000000, 1]`. -/
abbrev Y3 (c : Dev nD) : Nat → EReal :=
  fun r => at2 (n0 := 4000000) (n1 := 1) (m ((c.tc : Thread nD τ).loc main_arg3)) r 0
/-- The coefficients β `[18]`. -/
abbrev BB (c : Dev nD) : Nat → EReal :=
  at1 (n := 18) (m ((c.tc : Thread nD τ).loc main_arg4))

/-! ## Which block a point holds -/

/-- Every streamed window's block index at point `t` is `(t, 0)`; β's is `(0, 0)`. -/
theorem block_index : ∀ t : Fin cfg0.N,
    (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = 0 ∧ win0_4.index t 1 = 0) :=
  (by decide +kernel : ∀ t : Fin grid0.N,
    (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = 0 ∧ win0_4.index t 1 = 0))

/-- The model's output block at point `t` holds rows `8000·t + y`. -/
theorem blk0_apply (c : Dev nD) (t : Fin cfg0.N) (y : Fin 8000) (k : Fin 19) :
    (iblk m c 0 t : Vec Ideal S8000x19 .f32) (ix2 y k) = MO m c (8000 * t.val + y.val) k.val := by
  unfold iblk
  rw [View.read_apply]
  show V m c main_arg0 _ = _
  rw [V_main_arg0]
  refine at2_of_val _ _ _ _ ?_ ?_
  · show win0_0.index t 0 * 8000 + 1 * y.val = _
    rw [(block_index t).1.1]; omega
  · show win0_0.index t 1 * 19 + 1 * k.val = _
    rw [(block_index t).1.2]; omega

/-- `A`'s block at point `t`. -/
theorem blk1_apply (c : Dev nD) (t : Fin cfg0.N) (y : Fin 8000) (k : Fin 18) :
    (iblk m c 1 t : Vec Ideal S8000x18 .f32) (ix2 y k) = AA m c (8000 * t.val + y.val) k.val := by
  unfold iblk
  rw [View.read_apply]
  show V m c main_arg2 _ = _
  rw [V_main_arg2]
  refine at2_of_val _ _ _ _ ?_ ?_
  · show win0_1.index t 0 * 8000 + 1 * y.val = _
    rw [(block_index t).2.1.1]; omega
  · show win0_1.index t 1 * 18 + 1 * k.val = _
    rw [(block_index t).2.1.2]; omega

/-- The first target's block at point `t`. -/
theorem blk2_apply (c : Dev nD) (t : Fin cfg0.N) (y : Fin 8000) :
    (iblk m c 2 t : Vec Ideal S8000x1 .f32) (ix2 y (0 : Fin 1)) = Y1 m c (8000 * t.val + y.val) := by
  unfold iblk
  rw [View.read_apply]
  show V m c main_arg1 _ = _
  rw [V_main_arg1]
  refine at2_of_val _ _ _ _ ?_ ?_
  · show win0_2.index t 0 * 8000 + 1 * y.val = _
    rw [(block_index t).2.2.1.1]; omega
  · show win0_2.index t 1 * 1 + 1 * 0 = _
    rw [(block_index t).2.2.1.2]

/-- The second target's block at point `t`. -/
theorem blk3_apply (c : Dev nD) (t : Fin cfg0.N) (y : Fin 8000) :
    (iblk m c 3 t : Vec Ideal S8000x1 .f32) (ix2 y (0 : Fin 1)) = Y3 m c (8000 * t.val + y.val) := by
  unfold iblk
  rw [View.read_apply]
  show V m c main_arg3 _ = _
  rw [V_main_arg3]
  refine at2_of_val _ _ _ _ ?_ ?_
  · show win0_3.index t 0 * 8000 + 1 * y.val = _
    rw [(block_index t).2.2.2.1.1]; omega
  · show win0_3.index t 1 * 1 + 1 * 0 = _
    rw [(block_index t).2.2.2.1.2]

/-- The array β's window reads is β reshaped to one row, as @main made it before the call. -/
theorem V_beta (c : Dev nD) :
    (V m c main_v0 : S1x18.Idx → EReal) = shapeCast S1x18 (m ((c.tc : Thread nD τ).loc main_arg4)) shapeCasts_S18_S1x18 := by
  show StableHlo.after hostOps0 (fun b => m (c, b)) (Proc.devRef .tc main_v0) = _
  after_results
  rfl

/-- β's block at every point is the whole row. -/
theorem blk4_apply (c : Dev nD) (t : Fin cfg0.N) (k : Fin 18) :
    (iblk m c 4 t : Vec Ideal S1x18 .f32) (ix2 (0 : Fin 1) k) = BB m c k.val := by
  unfold iblk
  rw [View.read_apply]
  show (V m c main_v0 : S1x18.Idx → EReal) _ = _
  rw [V_beta]
  refine (shapeCast_apply _ _ _ (ix1 k) ?_).trans (at1_of_val _ _ _ rfl)
  rw [Shape.rowMajor_val_one, Shape.rowMajor_val_two]
  show k.val = (win0_4.index t 0 * 1 + 1 * 0) * 18 + (win0_4.index t 1 * 18 + 1 * k.val)
  rw [(block_index t).2.2.2.2.1, (block_index t).2.2.2.2.2]; omega

/-! ## A point's two sums -/

/-- Point `t`'s sum against the first target. -/
def P1 (c : Dev nD) (t : Fin cfg0.N) : EReal := dev (iblk m c 0 t) (iblk m c 1 t) (iblk m c 4 t) (iblk m c 2 t)
/-- Point `t`'s sum against the second target. -/
def P2 (c : Dev nD) (t : Fin cfg0.N) : EReal := dev (iblk m c 0 t) (iblk m c 1 t) (iblk m c 4 t) (iblk m c 3 t)

theorem P1_eq (c : Dev nD) (t : Fin cfg0.N) :
    P1 m c t = blockSum (sqDev (AA m c) (MO m c) (BB m c) (Y1 m c)) t.val :=
  dev_eq (iblk m c 0 t) (iblk m c 1 t) (iblk m c 4 t) (AA m c) (MO m c) (BB m c) (8000 * t.val)
    (blk0_apply m c t) (blk1_apply m c t) (blk4_apply m c t) (iblk m c 2 t) (Y1 m c) (blk2_apply m c t)

theorem P2_eq (c : Dev nD) (t : Fin cfg0.N) :
    P2 m c t = blockSum (sqDev (AA m c) (MO m c) (BB m c) (Y3 m c)) t.val :=
  dev_eq (iblk m c 0 t) (iblk m c 1 t) (iblk m c 4 t) (AA m c) (MO m c) (BB m c) (8000 * t.val)
    (blk0_apply m c t) (blk1_apply m c t) (blk4_apply m c t) (iblk m c 3 t) (Y3 m c) (blk3_apply m c t)

/-! ## Entry (0, 0) of the output blocks after each point -/

/-- At the first point of a core's run the entries end at the point's sums. -/
theorem corner_reset (c : Dev nD) (t : Fin cfg0.N) (h0 : t.val % 250 = 0) :
    (outsAt0 m c t.val t.isLt).1 (ix2 (0 : Fin 8) (0 : Fin 128)) = P1 m c t
    ∧ (outsAt0 m c t.val t.isLt).2 (ix2 (0 : Fin 8) (0 : Fin 128)) = P2 m c t := by
  rw [outsAt0_A m c t h0]
  exact ⟨outA5_corner c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t) (iblk m c 3 t) (iblk m c 4 t),
    outA6_corner c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t) (iblk m c 3 t) (iblk m c 4 t)⟩

/-- At every other point they grow by the point's sums. -/
theorem corner_step (c : Dev nD) (t : Fin cfg0.N) (h0 : ¬t.val % 250 = 0) :
    (outsAt0 m c t.val t.isLt).1 (ix2 (0 : Fin 8) (0 : Fin 128))
      = (outsAt0 m c (t.val - 1) (Nat.lt_of_le_of_lt (Nat.sub_le _ _) t.isLt)).1 (ix2 (0 : Fin 8) (0 : Fin 128)) + P1 m c t
    ∧ (outsAt0 m c t.val t.isLt).2 (ix2 (0 : Fin 8) (0 : Fin 128))
      = (outsAt0 m c (t.val - 1) (Nat.lt_of_le_of_lt (Nat.sub_le _ _) t.isLt)).2 (ix2 (0 : Fin 8) (0 : Fin 128)) + P2 m c t := by
  rw [outsAt0_B m c t h0]
  exact ⟨outB5_corner c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (iblk m c 3 t) (iblk m c 4 t) _ _,
    outB6_corner c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (iblk m c 3 t) (iblk m c 4 t) _ _⟩

/-- The specification's block sums, as functions of the point's number. -/
abbrev D1 (c : Dev nD) : Nat → EReal := blockSum (sqDev (AA m c) (MO m c) (BB m c) (Y1 m c))
abbrev D2 (c : Dev nD) : Nat → EReal := blockSum (sqDev (AA m c) (MO m c) (BB m c) (Y3 m c))

/-- After point `n` the two entries are the running sums of the block sums. -/
theorem corner_eq (c : Dev nD) : ∀ (n : Nat) (h : n < cfg0.N),
    (outsAt0 m c n h).1 (ix2 (0 : Fin 8) (0 : Fin 128)) = runSum (D1 m c) n
    ∧ (outsAt0 m c n h).2 (ix2 (0 : Fin 8) (0 : Fin 128)) = runSum (D2 m c) n
  | 0, h => by
    have := corner_reset m c ⟨0, h⟩ rfl
    exact ⟨this.1.trans (P1_eq m c ⟨0, h⟩), this.2.trans (P2_eq m c ⟨0, h⟩)⟩
  | n + 1, h => by
    by_cases h0 : (n + 1) % 250 = 0
    · have := corner_reset m c ⟨n + 1, h⟩ h0
      rw [runSum_reset _ _ h0, runSum_reset _ _ h0]
      exact ⟨this.1.trans (P1_eq m c ⟨n + 1, h⟩), this.2.trans (P2_eq m c ⟨n + 1, h⟩)⟩
    · have := corner_step m c ⟨n + 1, h⟩ h0
      have ih := corner_eq c n (Nat.lt_of_succ_lt h)
      rw [runSum_step _ _ h0, runSum_step _ _ h0]
      refine ⟨this.1.trans ?_, this.2.trans ?_⟩
      · show (outsAt0 m c n _).1 _ + _ = _
        rw [ih.1, P1_eq m c ⟨n + 1, h⟩]
      · show (outsAt0 m c n _).2 _ + _ = _
        rw [ih.2, P2_eq m c ⟨n + 1, h⟩]

end Cert.KernelIdeal.Rows

end
-- ==== Proof.Final.lean ====
/-
  The two output arrays after the run, at the entries the host reads.

  Each output is a `[16, 128]` array of two `[8, 128]` blocks, one per core: block `p` is written back once, after the
  core's last point `250·p + 249`. So entry (0, 0) of the array is what core 0's accumulator held after point 249, and
  entry (8, 0) what core 1's held after point 499: the running sums over each core's 250 blocks of rows, which
  together are the sum over all 4000000 rows.
-/
import proofs.«140841_j48430051230317_2_alg».proof.Proof.Rows

noncomputable section

namespace Cert.KernelIdeal.Final

open Cert.KernelIdeal Cert.KernelIdeal.Gen Cert.KernelIdeal.Rows Cert.LossSpec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- All rows are the two cores' runs: the running sum after step 249 plus the one after step 499. -/
theorem total_eq_runSums (f : Nat → EReal) : total f = runSum (blockSum f) 249 + runSum (blockSum f) 499 := by
  have e1 := runSum_eq (blockSum f) 0 249 (by omega)
  have e2 := runSum_eq (blockSum f) 1 249 (by omega)
  rw [total_eq_blocks]
  exact (congrArg₂ (· + ·) e1 e2).symm

/-- The outputs' block index at point `t` is `(t / 250, 0)`: the core's number. -/
theorem out_index : ∀ t : Fin cfg0.N,
    (win0_5.index t 0 = t.val / 250 ∧ win0_5.index t 1 = 0) ∧ (win0_6.index t 0 = t.val / 250 ∧ win0_6.index t 1 = 0) :=
  (by decide +kernel : ∀ t : Fin grid0.N,
    (win0_5.index t 0 = t.val / 250 ∧ win0_5.index t 1 = 0) ∧ (win0_6.index t 0 = t.val / 250 ∧ win0_6.index t 1 = 0))

/-- Two different points that write the first output back write disjoint row blocks. -/
theorem disj5 (c : Dev nD) : ∀ t t' : Fin cfg0.N, (cfg0.win 5).flush t = true → (cfg0.win 5).flush t' = true → t ≠ t' →
    Disjoint ((cfg0.win 5).blk t).view.set ((cfg0.win 5).blk t').view.set := by
  intro t t' hf hf' hne
  have h1 := (flush0_5 t).mp hf
  have h2 := (flush0_5 t').mp hf'
  have hv : t.val ≠ t'.val := fun e => hne (Fin.ext e)
  have hN : cfg0.N = 500 := N_0
  have ht := t.isLt
  have ht' := t'.isLt
  show Disjoint ((View.whole main_v1_0).slice (win0_5.rect t)).set ((View.whole main_v1_0).slice (win0_5.rect t')).set
  rw [View.set_slice_whole, View.set_slice_whole]
  refine Rect.unit_disjoint (0 : Fin 2) ?_
  show win0_5.index t 0 * 8 + 8 ≤ win0_5.index t' 0 * 8 ∨ win0_5.index t' 0 * 8 + 8 ≤ win0_5.index t 0 * 8
  rw [(out_index t).1.1, (out_index t').1.1]
  omega

/-- The same for the second output. -/
theorem disj6 (c : Dev nD) : ∀ t t' : Fin cfg0.N, (cfg0.win 6).flush t = true → (cfg0.win 6).flush t' = true → t ≠ t' →
    Disjoint ((cfg0.win 6).blk t).view.set ((cfg0.win 6).blk t').view.set := by
  intro t t' hf hf' hne
  have h1 := (flush0_6 t).mp hf
  have h2 := (flush0_6 t').mp hf'
  have hv : t.val ≠ t'.val := fun e => hne (Fin.ext e)
  have hN : cfg0.N = 500 := N_0
  have ht := t.isLt
  have ht' := t'.isLt
  show Disjoint ((View.whole main_v1_1).slice (win0_6.rect t)).set ((View.whole main_v1_1).slice (win0_6.rect t')).set
  rw [View.set_slice_whole, View.set_slice_whole]
  refine Rect.unit_disjoint (0 : Fin 2) ?_
  show win0_6.index t 0 * 8 + 8 ≤ win0_6.index t' 0 * 8 ∨ win0_6.index t' 0 * 8 + 8 ≤ win0_6.index t 0 * 8
  rw [(out_index t).2.1, (out_index t').2.1]
  omega

/-- Where entry (0, 0) of the block written back at point `t` lies in the array: row `8 · (t / 250)`, column 0. -/
theorem corner_in_array5 (t : Fin cfg0.N) (r : Fin 16) (hr : r.val = 8 * (t.val / 250)) :
    ((cfg0.win 5).blk t).view.emb (ix2 (0 : Fin 8) (0 : Fin 128)) = (ix2 r (0 : Fin 128) : S16x128.Idx) :=
  funext fun a => Fin.ext (by
    match a with
    | ⟨0, _⟩ => show win0_5.index t 0 * 8 + 1 * 0 = r.val; rw [(out_index t).1.1, hr]; omega
    | ⟨1, _⟩ => show win0_5.index t 1 * 128 + 1 * 0 = 0; rw [(out_index t).1.2])

theorem corner_in_array6 (t : Fin cfg0.N) (r : Fin 16) (hr : r.val = 8 * (t.val / 250)) :
    ((cfg0.win 6).blk t).view.emb (ix2 (0 : Fin 8) (0 : Fin 128)) = (ix2 r (0 : Fin 128) : S16x128.Idx) :=
  funext fun a => Fin.ext (by
    match a with
    | ⟨0, _⟩ => show win0_6.index t 0 * 8 + 1 * 0 = r.val; rw [(out_index t).2.1, hr]; omega
    | ⟨1, _⟩ => show win0_6.index t 1 * 128 + 1 * 0 = 0; rw [(out_index t).2.2])

/-- The first output after the run, at the corner of the block point `t` wrote back: core `t / 250`'s running sum. -/
theorem arr5_corner (c : Dev nD) (t : Fin cfg0.N) (hf : t.val % 250 = 249) (r : Fin 16) (hr : r.val = 8 * (t.val / 250)) :
    (dats m 0 c).arrAt 5 cfg0.N (ix2 r (0 : Fin 128) : S16x128.Idx) = runSum (D1 m c) t.val := by
  rw [← corner_in_array5 t r hr, Dat.arrAt_emb_eq_flushed (dats m 0 c) 5 (disj5 c) t ((flush0_5 t).mpr hf)]
  show (cfg0.win 5).cut (grid0.coords t) ((dats m 0 c).after 5 t) (ix2 (0 : Fin 8) (0 : Fin 128)) = _
  rw [after0_5]
  exact (corner_eq m c t.val t.isLt).1

/-- The second output likewise. -/
theorem arr6_corner (c : Dev nD) (t : Fin cfg0.N) (hf : t.val % 250 = 249) (r : Fin 16) (hr : r.val = 8 * (t.val / 250)) :
    (dats m 0 c).arrAt 6 cfg0.N (ix2 r (0 : Fin 128) : S16x128.Idx) = runSum (D2 m c) t.val := by
  rw [← corner_in_array6 t r hr, Dat.arrAt_emb_eq_flushed (dats m 0 c) 6 (disj6 c) t ((flush0_6 t).mpr hf)]
  show (cfg0.win 6).cut (grid0.coords t) ((dats m 0 c).after 6 t) (ix2 (0 : Fin 8) (0 : Fin 128)) = _
  rw [after0_6]
  exact (corner_eq m c t.val t.isLt).2

/-- The last point of core 0's run, and of core 1's. -/
abbrev lastPoint0 : Fin cfg0.N := ⟨249, Nat.lt_of_lt_of_eq (by decide : 249 < 500) N_0.symm⟩
abbrev lastPoint1 : Fin cfg0.N := ⟨499, Nat.lt_of_lt_of_eq (by decide : 499 < 500) N_0.symm⟩

/-- The first output array after the run. -/
abbrev out5 (c : Dev nD) : (⟨S16x128, .f32⟩ : BufTy).Contents (Elt Ideal) := (dats m 0 c).arrAt 5 cfg0.N
/-- The second output array after the run. -/
abbrev out6 (c : Dev nD) : (⟨S16x128, .f32⟩ : BufTy).Contents (Elt Ideal) := (dats m 0 c).arrAt 6 cfg0.N

/-- The two entries of the first output the host adds are the sum of the first squared deviations over all rows. -/
theorem arr5_total (c : Dev nD) :
    (out5 m c (ix2 (0 : Fin 16) (0 : Fin 128)) : EReal) + (out5 m c (ix2 (8 : Fin 16) (0 : Fin 128)) : EReal)
      = total (sqDev (AA m c) (MO m c) (BB m c) (Y1 m c)) := by
  have e0 : (out5 m c (ix2 (0 : Fin 16) (0 : Fin 128)) : EReal) = runSum (D1 m c) 249 :=
    arr5_corner m c lastPoint0 (by decide) 0 (by decide)
  have e8 : (out5 m c (ix2 (8 : Fin 16) (0 : Fin 128)) : EReal) = runSum (D1 m c) 499 :=
    arr5_corner m c lastPoint1 (by decide) 8 (by decide)
  rw [e0, e8]
  exact (total_eq_runSums _).symm

/-- And of the second output, the second squared deviations. -/
theorem arr6_total (c : Dev nD) :
    (out6 m c (ix2 (0 : Fin 16) (0 : Fin 128)) : EReal) + (out6 m c (ix2 (8 : Fin 16) (0 : Fin 128)) : EReal)
      = total (sqDev (AA m c) (MO m c) (BB m c) (Y3 m c)) := by
  have e0 : (out6 m c (ix2 (0 : Fin 16) (0 : Fin 128)) : EReal) = runSum (D2 m c) 249 :=
    arr6_corner m c lastPoint0 (by decide) 0 (by decide)
  have e8 : (out6 m c (ix2 (8 : Fin 16) (0 : Fin 128)) : EReal) = runSum (D2 m c) 499 :=
    arr6_corner m c lastPoint1 (by decide) 8 (by decide)
  rw [e0, e8]
  exact (total_eq_runSums _).symm

end Cert.KernelIdeal.Final

end
-- ==== Proof.Tail.lean ====
/-
  The host's lines after the call.

  @main reads entries (0, 0) and (8, 0) of each output array, adds the pair, divides each sum by 4000000, multiplies the
  second quotient by one and adds the two. This module wraps those lines in one function of the two arrays, reads it at
  its one index, and shows the kernel program's result is it, of the arrays the run leaves.
-/
import proofs.«140841_j48430051230317_2_alg».proof.Proof.Final
import Idealize.ShloMosaic.Lib.StableHlo.Run

noncomputable section

namespace Cert.KernelIdeal.Tail

open Cert.KernelIdeal Cert.KernelIdeal.Gen Cert.KernelIdeal.Rows Cert.KernelIdeal.Final Cert.LossSpec
open Idealize.ShloMosaic Idealize.ShloMosaic.TcCoe Idealize.ShloMosaic.ValueIdx Idealize.SL.Sem
open Idealize.ShloMosaic.Pipeline (Dat)

/-- One entry of column 0, sliced out and reshaped to a scalar. -/
abbrev entry (X : (⟨S16x128, .f32⟩ : BufTy).Contents (Elt Ideal)) (off : Fin 2 → Nat) (h : S16x128.Slices off S1x1) :
    (⟨S_, .f32⟩ : BufTy).Contents (Elt Ideal) :=
  shapeCast S_ (extractStridedSlice S1x1 off X h) shapeCasts_S1x1_S_

/-- The lines after the call, of the two output arrays. -/
def tail (X5 X6 : (⟨S16x128, .f32⟩ : BufTy).Contents (Elt Ideal)) : (⟨S_, .f32⟩ : BufTy).Contents (Elt Ideal) :=
  addf
    (Host.divf (F := Ideal) (addf (entry X5 ![0, 0] slices_S16x128_S1x1_0_0) (entry X5 ![8, 0] slices_S16x128_S1x1_8_0))
      (constant (F := Ideal) S_ .f32 0x4A742400#32))
    (mulf (constant (F := Ideal) S_ .f32 0x3F800000#32)
      (Host.divf (F := Ideal) (addf (entry X6 ![0, 0] slices_S16x128_S1x1_0_0) (entry X6 ![8, 0] slices_S16x128_S1x1_8_0))
        (constant (F := Ideal) S_ .f32 0x4A742400#32)))

/-- The only index of a `[1, 1]` array. -/
theorem idx11 (j : S1x1.Idx) : j = ix2 (0 : Fin 1) (0 : Fin 1) :=
  funext fun a => Fin.ext (by
    match a with
    | ⟨0, _⟩ => show (j 0).val = 0; have : (j 0).val < 1 := (j 0).isLt; omega
    | ⟨1, _⟩ => show (j 1).val = 0; have : (j 1).val < 1 := (j 1).isLt; omega)

/-- An entry reads the array at row `r`, column 0. -/
theorem entry_apply (X : (⟨S16x128, .f32⟩ : BufTy).Contents (Elt Ideal)) (off0 : Nat) (r : Fin 16) (hr : r.val = off0)
    (h : S16x128.Slices ![off0, 0] S1x1) (i : S_.Idx) : entry X ![off0, 0] h i = X (ix2 r (0 : Fin 128)) := by
  show shapeCast S_ (extractStridedSlice S1x1 ![off0, 0] X h) shapeCasts_S1x1_S_ i = _
  unfold shapeCast
  generalize Shape.reshapeEquiv _ i = j
  rw [idx11 j]
  exact extractStridedSlice_apply ![off0, 0] X h (ix2 (0 : Fin 1) (0 : Fin 1)) (ix2 r (0 : Fin 128)) (fun a => by
    match a with
    | ⟨0, _⟩ => show r.val = off0 + 0; omega
    | ⟨1, _⟩ => show 0 = 0 + 0; rfl)

/-- The lines after the call at their one index. -/
theorem tail_apply (X5 X6 : (⟨S16x128, .f32⟩ : BufTy).Contents (Elt Ideal)) (i : S_.Idx) :
    tail X5 X6 i = FloatOps.addf (F := Ideal) (φ := .f32)
      (FloatOps.hostDivf (F := Ideal) (φ := .f32) ((X5 (ix2 (0 : Fin 16) (0 : Fin 128)) : EReal) + (X5 (ix2 (8 : Fin 16) (0 : Fin 128)) : EReal))
        (Ideal.ofBits .f32 0x4A742400#32))
      (FloatOps.mulf (F := Ideal) (φ := .f32) (Ideal.ofBits .f32 0x3F800000#32)
        (FloatOps.hostDivf (F := Ideal) (φ := .f32) ((X6 (ix2 (0 : Fin 16) (0 : Fin 128)) : EReal) + (X6 (ix2 (8 : Fin 16) (0 : Fin 128)) : EReal))
          (Ideal.ofBits .f32 0x4A742400#32))) := by
  have e1 := entry_apply X5 0 (0 : Fin 16) (by decide) slices_S16x128_S1x1_0_0 i
  have e2 := entry_apply X5 8 (8 : Fin 16) (by decide) slices_S16x128_S1x1_8_0 i
  have e3 := entry_apply X6 0 (0 : Fin 16) (by decide) slices_S16x128_S1x1_0_0 i
  have e4 := entry_apply X6 8 (8 : Fin 16) (by decide) slices_S16x128_S1x1_8_0 i
  show FloatOps.addf (F := Ideal) (φ := .f32)
      (FloatOps.hostDivf (F := Ideal) (φ := .f32)
        (FloatOps.addf (F := Ideal) (φ := .f32) (entry X5 ![0, 0] slices_S16x128_S1x1_0_0 i) (entry X5 ![8, 0] slices_S16x128_S1x1_8_0 i))
        (Ideal.ofBits .f32 0x4A742400#32))
      (FloatOps.mulf (F := Ideal) (φ := .f32) (Ideal.ofBits .f32 0x3F800000#32)
        (FloatOps.hostDivf (F := Ideal) (φ := .f32)
          (FloatOps.addf (F := Ideal) (φ := .f32) (entry X6 ![0, 0] slices_S16x128_S1x1_0_0 i) (entry X6 ![8, 0] slices_S16x128_S1x1_8_0 i))
          (Ideal.ofBits .f32 0x4A742400#32))) = _
  rw [e1, e2, e3, e4]
  rfl

variable (m : (ℓ : Loc nD τ sig) → Buf (Elt Ideal) ℓ)

/-- The program's result after the run is the lines after the call, of the two output arrays as the run leaves them. -/
theorem afterTail_eq (c : Dev nD) :
    Pipeline.afterTail₀ cfgs (dats m) 0 (V0 m) [hostOps1] c main_v15
      = tail (out5 m c) (out6 m c) := by
  unfold Pipeline.afterTail₀
  show StableHlo.after hostOps1 _ (Proc.devRef .tc main_v15) = _
  after_results
  rw [Pipeline.withArrays_arr spec0 launch0.win.arr_inj c _ _ 5, Pipeline.withArrays_arr spec0 launch0.win.arr_inj c _ _ 6]
  rfl

/-- So the kernel program's result is the loss. -/
theorem result_eq (c : Dev nD) :
    Pipeline.afterTail₀ cfgs (dats m) 0 (V0 m) [hostOps1] c main_v15
      = fun _ => loss (AA m c) (MO m c) (BB m c) (Y1 m c) (Y3 m c) := by
  rw [afterTail_eq]
  funext i
  rw [tail_apply, arr5_total, arr6_total]
  rfl

end Cert.KernelIdeal.Tail

end
-- ==== Proof.RefVal.lean ====
/-
  The reference, read at the extended reals, is the specification's loss.

  Its row `r` is the 18-term dot product of `A`'s row with β plus the row's corrections (from zero, the host's
  initial value), plus the row's bias; each mean is the host's sum over the `[4000000, 1]` column of squares — a sum
  over the 4000000 row numbers — divided by the constant.
-/
import proofs.«140841_j48430051230317_2_alg».proof.Proof.Gen.ReferenceIdeal.Read
import proofs.«140841_j48430051230317_2_alg».proof.Proof.Spec

noncomputable section

namespace Cert.ReferenceIdeal.RefValue

open Cert.ReferenceIdeal Cert.ReferenceIdeal.Read Cert.LossSpec
open Idealize.ShloMosaic Idealize.ShloMosaic.ValueIdx

variable (x0 : (⟨S4000000x19, .f32⟩ : BufTy).Contents (Elt Ideal)) (x1 : (⟨S4000000x1, .f32⟩ : BufTy).Contents (Elt Ideal)) (x2 : (⟨S4000000x18, .f32⟩ : BufTy).Contents (Elt Ideal)) (x3 : (⟨S4000000x1, .f32⟩ : BufTy).Contents (Elt Ideal)) (x4 : (⟨S18, .f32⟩ : BufTy).Contents (Elt Ideal))

/-- The arrays at natural-number coordinates. -/
abbrev MO : Nat → Nat → EReal := at2 (n0 := 4000000) (n1 := 19) x0
abbrev Y1 : Nat → EReal := fun r => at2 (n0 := 4000000) (n1 := 1) x1 r 0
abbrev AA : Nat → Nat → EReal := at2 (n0 := 4000000) (n1 := 18) x2
abbrev Y3 : Nat → EReal := fun r => at2 (n0 := 4000000) (n1 := 1) x3 r 0
abbrev BB : Nat → EReal := at1 (n := 18) x4

/-- The reference's row before the targets. -/
theorem v8_apply (j : S4000000x1.Idx) :
    val_main_v8 (F := Ideal) x0 x2 x4 j = rowValue (AA x2) (MO x0) (BB x4) (j 0).val := by
  rw [val_main_v8_apply, val_main_v7_apply, val_main_v6_apply, val_main_v1_apply, val_main_cst_apply]
  unfold rowValue
  show (Ideal.ofBits .f32 0x00000000#32 + _) + _ = _
  rw [Ideal.ofBits_zero_f32, zero_add]
  refine congrArg₂ (· + ·) (Finset.sum_congr rfl fun k _ => ?_) ?_
  · rw [val_main_v5_apply, val_main_v4_apply, val_main_v3_apply, val_main_v2_apply, val_main_v0_apply]
    show x2 _ * (x4 _ + x0 _) = _
    rw [at2_of_val (n0 := 4000000) (n1 := 18) x2 _ (j 0).val k.val rfl rfl,
      at1_of_val (n := 18) x4 _ k.val rfl,
      at2_of_val (n0 := 4000000) (n1 := 19) x0 _ (j 0).val k.val rfl rfl]
  · exact at2_of_val (n0 := 4000000) (n1 := 19) x0 _ (j 0).val 18 rfl (by
      show 18 + (j 1).val = 18
      have : (j 1).val < 1 := (j 1).isLt
      omega)

/-- The squares against the first target. -/
theorem v10_apply (j : S4000000x1.Idx) :
    val_main_v10 (F := Ideal) x0 x1 x2 x4 j = sqDev (AA x2) (MO x0) (BB x4) (Y1 x1) (j 0).val := by
  rw [val_main_v10_apply, val_main_v9_apply, v8_apply]
  unfold sqDev
  show (_ - x1 j) * (_ - x1 j) = _
  rw [at2_of_val (n0 := 4000000) (n1 := 1) x1 j (j 0).val 0 rfl (by have : (j 1).val < 1 := (j 1).isLt; omega)]

/-- The squares against the second target. -/
theorem v14_apply (j : S4000000x1.Idx) :
    val_main_v14 (F := Ideal) x0 x2 x3 x4 j = sqDev (AA x2) (MO x0) (BB x4) (Y3 x3) (j 0).val := by
  rw [val_main_v14_apply, val_main_v13_apply, v8_apply]
  unfold sqDev
  show (_ - x3 j) * (_ - x3 j) = _
  rw [at2_of_val (n0 := 4000000) (n1 := 1) x3 j (j 0).val 0 rfl (by have : (j 1).val < 1 := (j 1).isLt; omega)]

/-- A sum over the indices of a `[4000000, 1]` column is the sum over its 4000000 row numbers. -/
theorem sum_rows (g : (⟨2, ![4000000, 1]⟩ : Shape).Idx → EReal) (f : Nat → EReal)
    (h : ∀ r : Fin 4000000, g (ix2 r (0 : Fin 1)) = f r.val) : ∑ j, g j = total f := by
  rw [sum_idx2]
  unfold total
  rw [← Fin.sum_univ_eq_sum_range f 4000000]
  refine Finset.sum_congr rfl fun r _ => ?_
  rw [Fin.sum_univ_one]
  exact h r

/-- The reference's result is the loss. -/
theorem result_eq :
    val_main_v18 (F := Ideal) x0 x1 x2 x3 x4
      = fun _ => loss (AA x2) (MO x0) (BB x4) (Y1 x1) (Y3 x3) := by
  funext i
  have s1 : (Ideal.ofBits .f32 0x00000000#32 : EReal) + ∑ j, val_main_v10 (F := Ideal) x0 x1 x2 x4 j
      = total (sqDev (AA x2) (MO x0) (BB x4) (Y1 x1)) := by
    rw [Ideal.ofBits_zero_f32, zero_add]
    exact sum_rows _ _ fun r => v10_apply x0 x1 x2 x4 (ix2 r (0 : Fin 1))
  have s2 : (Ideal.ofBits .f32 0x00000000#32 : EReal) + ∑ j, val_main_v14 (F := Ideal) x0 x2 x3 x4 j
      = total (sqDev (AA x2) (MO x0) (BB x4) (Y3 x3)) := by
    rw [Ideal.ofBits_zero_f32, zero_add]
    exact sum_rows _ _ fun r => v14_apply x0 x2 x3 x4 (ix2 r (0 : Fin 1))
  rw [val_main_v18_apply, val_main_v12_apply, val_main_v17_apply, val_main_v16_apply, val_main_v11_apply,
    val_main_v15_apply, val_main_cst_0_apply, val_main_cst_2_apply, val_main_cst_1_apply, val_main_cst_3_apply,
    val_main_cst_4_apply]
  unfold loss
  show FloatOps.addf (FloatOps.hostDivf (Ideal.ofBits .f32 0x00000000#32 + _) _)
    (FloatOps.mulf _ (FloatOps.hostDivf (Ideal.ofBits .f32 0x00000000#32 + _) _)) = _
  rw [s1, s2]
  rfl

end Cert.ReferenceIdeal.RefValue

end
-- ==== Proof.lean ====
/-
  The kernel and its reference compute one loss.

  Both take a model's output `MO` (4000000 rows of 18 corrections and a bias), two targets `Y₁`, `Y₃` (one entry per
  row), a matrix `A` (18 entries per row) and 18 coefficients β, and return

      (∑ r, dev₁ r) / 4000000 + 1 · ((∑ r, dev₃ r) / 4000000),   dev r = ((∑ k < 18, A r k · (β k + MO r k)) + MO r 18 − Y r)².

  The reference sums the 4000000 squares at once. The kernel walks a grid of 2 × 250 points, one core per half; at a
  point it holds 8000 consecutive rows, sums their squares, and adds the sum to entry (0, 0) of the core's block of
  each of two `[16, 128]` outputs, which it zeroed at the core's first point; afterwards the host adds entries (0, 0)
  and (8, 0) of each output and divides. Over the extended reals addition is commutative and associative, so the
  4000000 squares summed block by block, core by core, are the same sum; everything else is the same expression on
  both sides, constant for constant. No precondition is used for that: the equality holds at infinite entries too.

  Proof/Spec.lean states the loss and the regrouping of the sum; Proof/Block.lean and Proof/Cases.lean read one point's
  arithmetic and what it leaves at entry (0, 0); Proof/PointSum.lean and Proof/Rows.lean identify a point's sum with the
  specification's over that point's rows and follow the accumulators through the grid; Proof/Final.lean reads the two
  entries of each output after the run; Proof/Tail.lean the host's lines after the call; Proof/RefVal.lean the
  reference. That each program runs to completion with its arguments unchanged is the generated frame of each.
-/
import proofs.«140841_j48430051230317_2_alg».proof.Defs
import proofs.«140841_j48430051230317_2_alg».proof.Proof.Gen.Kernel
import proofs.«140841_j48430051230317_2_alg».proof.Proof.Gen.Kernel.Skeleton
import proofs.«140841_j48430051230317_2_alg».proof.Proof.Gen.Kernel.Launch
import proofs.«140841_j48430051230317_2_alg».proof.Proof.Gen.Kernel.Points
import proofs.«140841_j48430051230317_2_alg».proof.Proof.Gen.Kernel.Frame
import proofs.«140841_j48430051230317_2_alg».proof.Proof.Gen.KernelIdeal
import proofs.«140841_j48430051230317_2_alg».proof.Proof.Gen.KernelIdeal.Skeleton
import proofs.«140841_j48430051230317_2_alg».proof.Proof.Gen.KernelIdeal.Launch
import proofs.«140841_j48430051230317_2_alg».proof.Proof.Gen.KernelIdeal.Points
import proofs.«140841_j48430051230317_2_alg».proof.Proof.Gen.KernelIdeal.Frame
import proofs.«140841_j48430051230317_2_alg».proof.Proof.Gen.ReferenceIdeal
import proofs.«140841_j48430051230317_2_alg».proof.Proof.Gen.ReferenceIdeal.Run
import proofs.«140841_j48430051230317_2_alg».proof.Proof.Gen.ReferenceIdeal.Read
import proofs.«140841_j48430051230317_2_alg».proof.Proof.Gen.Pre_finite_inputs
import proofs.«140841_j48430051230317_2_alg».proof.Proof.Tail
import proofs.«140841_j48430051230317_2_alg».proof.Proof.RefVal
import Idealize.ShloMosaic.Adequacy
import Idealize.ShloMosaic.Init

noncomputable section

namespace Cert.Proof

open Idealize.ShloMosaic Idealize.ShloMosaic.TcCoe Idealize.SL.Sem Cert.LossSpec

/-! ## The three programs run, and leave their arguments alone -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-! ## The kernel program's run, with its result -/

section KernelRun

open Cert.KernelIdeal Cert.KernelIdeal.Gen Cert.KernelIdeal.Rows

/-- Every run of the kernel program ends with its result at the loss of its argument arrays, and those unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v15) = (fun _ => loss (AA m c) (MO m c) (BB m c) (Y1 m c) (Y3 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v15 (Pipeline.mem_restRefs_of main_v15 (by decide) (by decide))).trans (Cert.KernelIdeal.Tail.result_eq m c),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).1 1).trans (((dats m 0 c).arrAt_in 1 rfl _).trans ((A_eq m c 1).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

end KernelRun

/-! ## The two idealized programs agree -/

/-- From memories that agree on the arguments both programs end at the loss of those arguments. -/
theorem algebraic : Cert.algebraic_KernelIdeal_ReferenceIdeal := by
  intro m ρ m' ρ' _ hagree
  refine ⟨fun c => fun _ => loss (Cert.KernelIdeal.Rows.AA m c) (Cert.KernelIdeal.Rows.MO m c) (Cert.KernelIdeal.Rows.BB m c)
    (Cert.KernelIdeal.Rows.Y1 m c) (Cert.KernelIdeal.Rows.Y3 m c), kernel_run m ρ, ?_⟩
  refine (θ_run Cert.ReferenceIdeal.defs _ _).mono (fun _ h c => ⟨?_, (h c).2⟩)
    (Cert.ReferenceIdeal.Value.run (F := Ideal) m' ρ')
  obtain ⟨e0, e1, e2, e3, e4⟩ := hagree c
  rw [(h c).1, Cert.ReferenceIdeal.Read.val_main_v18_eq, Cert.ReferenceIdeal.RefValue.result_eq, e0, e1, e2, e3, e4]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
